-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S64x1024x1024 : Shape := ⟨3, ![64, 1024, 1024]⟩
abbrev S64x32x1024 : Shape := ⟨3, ![64, 32, 1024]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel
  bcast_S_S64x32x1024 : S_.BroadcastsInDim S64x32x1024 (![] : Fin 0 → Fin S64x32x1024.rank)
  reducesTo_S64x32x1024_S_d0_1_2 : S64x32x1024.ReducesTo [0, 1, 2] S_

variable [Facts]

def fn {F : FTy → Type} [FloatOps F] (main_arg0 : IVec S64x1024 32) (main_arg1 : FVec F S64x1024x1024 .f32) (main_arg2 : FVec F S64x32x1024 .f32) : IVec S_ 1 :=
  let main_v0 : FVec F S64x1024x1024 .f32 := Host.absf main_arg1
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  let main_v4 : FVec F S64x32x1024 .f32 := Host.absf main_arg2
  let main_cst_0 : FVec F S_ .f32 := constant S_ .f32 0x7F800000#32
  let main_v5 : FVec F S64x32x1024 .f32 := broadcastInDim S64x32x1024 ![] bcast_S_S64x32x1024 main_cst_0
  let main_v6 : IVec S64x32x1024 1 := cmpf .olt main_v4 main_v5
  let main_c_1 : IVec S_ 1 := constantI S_ 1 1#1
  let main_v7 : IVec S_ 1 := (fun x v => Host.reduce IntOp.andi x v reducesTo_S64x32x1024_S_d0_1_2 h_S_) main_v6 main_c_1
  let main_v8 : IVec S_ 1 := andi main_v3 main_v7
  main_v8
-- ==== Kernel.lean ====
abbrev S64x1024 : Shape := ⟨2, ![64, 1024]⟩
abbrev S64x1024x1024 : Shape := ⟨3, ![64, 1024, 1024]⟩
abbrev S64x32x1024 : Shape := ⟨3, ![64, 32, 1024]⟩
abbrev S64x1x1024 : Shape := ⟨3, ![64, 1, 1024]⟩
abbrev S1x1x1024 : Shape := ⟨3, ![1, 1, 1024]⟩
abbrev S1x1024x1024 : Shape := ⟨3, ![1, 1024, 1024]⟩
abbrev S1x32x1024 : Shape := ⟨3, ![1, 32, 1024]⟩
abbrev S1024 : Shape := ⟨1, ![1024]⟩
abbrev S1024x1024 : Shape := ⟨2, ![1024, 1024]⟩
abbrev S32x1024 : Shape := ⟨2, ![32, 1024]⟩
abbrev S1x1024 : Shape := ⟨2, ![1, 1024]⟩
abbrev S32 : Shape := ⟨1, ![32]⟩
abbrev S32x1 : Shape := ⟨2, ![32, 1]⟩
abbrev S_ : Shape := ⟨0, ![]⟩
abbrev S64x32 : Shape := ⟨2, ![64, 32]⟩
abbrev S64 : Shape := ⟨1, ![64]⟩

abbrev nBuf : Space → Nat
  | .hbm => 33
  | .vmem => 6
  | .smem => 0
  | _ => 0

abbrev bufTy : (tb : Table) → Fin (tcTables nBuf tb) → BufTy
  | .hbm, ⟨0, _⟩ => ⟨S64x1024, .i32⟩
  | .hbm, ⟨1, _⟩ => ⟨S64x1024x1024, .f32⟩
  | .hbm, ⟨2, _⟩ => ⟨S64x32x1024, .f32⟩
  | .hbm, ⟨3, _⟩ => ⟨S64x1x1024, .i32⟩
  | .hbm, ⟨4, _⟩ => ⟨S64x32x1024, .f32⟩
  | .hbm, ⟨5, _⟩ => ⟨S64x32x1024, .f32⟩
  | .hbm, ⟨6, _⟩ => ⟨S_, .f32⟩
  | .hbm, ⟨7, _⟩ => ⟨S64x32, .f32⟩
  | .hbm, ⟨8, _⟩ => ⟨S64x32x1024, .f32⟩
  | .hbm, ⟨9, _⟩ => ⟨S_, .f32⟩
  | .hbm, ⟨10, _⟩ => ⟨S64x32, .f32⟩
  | .hbm, ⟨11, _⟩ => ⟨S64x32, .f32⟩
  | .hbm, ⟨12, _⟩ => ⟨S64x32x1024, .f32⟩
  | .hbm, ⟨13, _⟩ => ⟨S_, .f32⟩
  | .hbm, ⟨14, _⟩ => ⟨S64x32, .f32⟩
  | .hbm, ⟨15, _⟩ => ⟨S64x32, .f32⟩
  | .hbm, ⟨16, _⟩ => ⟨S64x32, .f32⟩
  | .hbm, ⟨17, _⟩ => ⟨S_, .f32⟩
  | .hbm, ⟨18, _⟩ => ⟨S64x32, .f32⟩
  | .hbm, ⟨19, _⟩ => ⟨S64x32, .f32⟩
  | .hbm, ⟨20, _⟩ => ⟨S64x32, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1x1x1024, .i32⟩
  | .local _ .vmem, ⟨1, _⟩ => ⟨S1x1x1024, .i32⟩
  | .local _ .vmem, ⟨2, _⟩ => ⟨S1x1024x1024, .f32⟩
  | .local _ .vmem, ⟨3, _⟩ => ⟨S1x1024x1024, .f32⟩
  | .local _ .vmem, ⟨4, _⟩ => ⟨S1x32x1024, .f32⟩
  | .local _ .vmem, ⟨5, _⟩ => ⟨S1x32x1024, .f32⟩
  | _, _ => ⟨S64x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64x1024_S64x1x1024_0_2 : S64x1024.BroadcastsInDim S64x1x1024 (![0, 2] : Fin 2 → Fin S64x1x1024.rank)
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  iota_S32x1024_d0_w32 : S32x1024.Iotas .tc 32 [0]
  shapeCasts_S1024_S1x1024 : S1024.ShapeCasts S1x1024
  shapeCasts_S1x1024_S1x1024 : S1x1024.ShapeCasts S1x1024
  broadcasts_S1x1024_S32x1024 : S1x1024.Broadcasts S32x1024
  natLt_1_32 : 1 < 32
  reduces_S32x1024_S32 : S32x1024.Reduces [1] S32
  shapeCasts_S32_S32x1 : S32.ShapeCasts S32x1
  broadcasts_S32x1_S32x1024 : S32x1.Broadcasts S32x1024
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  shapeCasts_S32x1024_S1x32x1024 : S32x1024.ShapeCasts S1x32x1024
  reducesTo_S64x32x1024_S64x32_d2 : S64x32x1024.ReducesTo [2] S64x32
  h_S_ : 0 < S_.numel
  bcast_S_S64x32 : S_.BroadcastsInDim S64x32 (![] : Fin 0 → Fin S64x32.rank)
  reducesTo_S64x32_S64_d1 : S64x32.ReducesTo [1] S64
  bcast_S_S64 : S_.BroadcastsInDim S64 (![] : Fin 0 → Fin S64.rank)
  reducesTo_S64_S_d0 : S64.ReducesTo [0] S_
  dot_S32x1024_S1024x1024_S32x1024_1_0_0_1_n_n_wf : DotDims.WF S32x1024 S1024x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S64x1x1024.size a
  hwx0_0 : ∀ i : grid0.Coords, EltTy.bits .i32 = 32 ∨ (Rect.block (s := S64x1x1024) S1x1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .f32 = 32 ∨ (Rect.block (s := S64x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x1024.size a ≤ S64x32x1024.size a
  hwx0_2 : ∀ i : grid0.Coords, EltTy.bits .f32 = 32 ∨ (Rect.block (s := S64x32x1024) S1x32x1024.size (cc0_transform_2 i) (hinb0_2 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

abbrev win0_0 : Pipeline.Window sig grid0 :=
  Pipeline.Window.ofSpec (Memref.whole main_v0) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1024 : Shape := ⟨2, ![64, 1024]⟩
abbrev S64x1024x1024 : Shape := ⟨3, ![64, 1024, 1024]⟩
abbrev S64x32x1024 : Shape := ⟨3, ![64, 32, 1024]⟩
abbrev S64x1024x1 : Shape := ⟨3, ![64, 1024, 1]⟩
abbrev S32 : Shape := ⟨1, ![32]⟩
abbrev S_ : Shape := ⟨0, ![]⟩
abbrev S1x1x32 : Shape := ⟨3, ![1, 1, 32]⟩
abbrev S64x1024x32 : Shape := ⟨3, ![64, 1024, 32]⟩
abbrev S64x32 : Shape := ⟨2, ![64, 32]⟩
abbrev S64x32x1 : Shape := ⟨3, ![64, 32, 1]⟩
abbrev S64 : Shape := ⟨1, ![64]⟩

abbrev nBuf : Space → Nat
  | .hbm => 47
  | .vmem => 0
  | .smem => 0
  | _ => 0

abbrev bufTy : (tb : Table) → Fin (tcTables nBuf tb) → BufTy
  | .hbm, ⟨0, _⟩ => ⟨S64x1024, .i32⟩
  | .hbm, ⟨1, _⟩ => ⟨S64x1024x1024, .f32⟩
  | .hbm, ⟨2, _⟩ => ⟨S64x32x1024, .f32⟩
  | .hbm, ⟨3, _⟩ => ⟨S64x1024x1, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S1x1x32, .i32⟩
  | .hbm, ⟨9, _⟩ => ⟨S64x1024x32, .i32⟩
  | .hbm, ⟨10, _⟩ => ⟨S64x1024x32, .i32⟩
  | .hbm, ⟨11, _⟩ => ⟨S64x1024x32, .i1⟩
  | .hbm, ⟨12, _⟩ => ⟨S64x1024x32, .f32⟩
  | .hbm, ⟨13, _⟩ => ⟨S64x32x1024, .f32⟩
  | .hbm, ⟨14, _⟩ => ⟨S_, .f32⟩
  | .hbm, ⟨15, _⟩ => ⟨S64x32, .f32⟩
  | .hbm, ⟨16, _⟩ => ⟨S64x32x1, .f32⟩
  | .hbm, ⟨17, _⟩ => ⟨S64x32x1024, .f32⟩
  | .hbm, ⟨18, _⟩ => ⟨S64x32x1024, .f32⟩
  | .hbm, ⟨19, _⟩ => ⟨S64x32x1024, .f32⟩
  | .hbm, ⟨20, _⟩ => ⟨S_, .f32⟩
  | .hbm, ⟨21, _⟩ => ⟨S64x32, .f32⟩
  | .hbm, ⟨22, _⟩ => ⟨S64x32x1024, .f32⟩
  | .hbm, ⟨23, _⟩ => ⟨S_, .f32⟩
  | .hbm, ⟨24, _⟩ => ⟨S64x32, .f32⟩
  | .hbm, ⟨25, _⟩ => ⟨S64x32, .f32⟩
  | .hbm, ⟨26, _⟩ => ⟨S64x32x1024, .f32⟩
  | .hbm, ⟨27, _⟩ => ⟨S_, .f32⟩
  | .hbm, ⟨28, _⟩ => ⟨S64x32, .f32⟩
  | .hbm, ⟨29, _⟩ => ⟨S64x32, .f32⟩
  | .hbm, ⟨30, _⟩ => ⟨S64x32, .f32⟩
  | .hbm, ⟨31, _⟩ => ⟨S_, .f32⟩
  | .hbm, ⟨32, _⟩ => ⟨S64x32, .f32⟩
  | .hbm, ⟨33, _⟩ => ⟨S64x32, .f32⟩
  | .hbm, ⟨34, _⟩ => ⟨S64x32, .f32⟩
  | .hbm, ⟨35, _⟩ => ⟨S_, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S64x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_v16 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  bcast_S64x1024_S64x1024x1_0_1 : S64x1024.BroadcastsInDim S64x1024x1 (![0, 1] : Fin 2 → Fin S64x1024x1.rank)
  bcast_S_S32 : S_.BroadcastsInDim S32 (![] : Fin 0 → Fin S32.rank)
  bcast_S32_S1x1x32_2 : S32.BroadcastsInDim S1x1x32 (![2] : Fin 1 → Fin S1x1x32.rank)
  bcast_S64x1024x1_S64x1024x32_0_1_2 : S64x1024x1.BroadcastsInDim S64x1024x32 (![0, 1, 2] : Fin 3 → Fin S64x1024x32.rank)
  bcast_S1x1x32_S64x1024x32_0_1_2 : S1x1x32.BroadcastsInDim S64x1024x32 (![0, 1, 2] : Fin 3 → Fin S64x1024x32.rank)
  reducesTo_S64x1024x32_S64x32_d1 : S64x1024x32.ReducesTo [1] S64x32
  h_S_ : 0 < S_.numel
  bcast_S64x32_S64x32x1_0_1 : S64x32.BroadcastsInDim S64x32x1 (![0, 1] : Fin 2 → Fin S64x32x1.rank)
  bcast_S64x32x1_S64x32x1024_0_1_2 : S64x32x1.BroadcastsInDim S64x32x1024 (![0, 1, 2] : Fin 3 → Fin S64x32x1024.rank)
  reducesTo_S64x32x1024_S64x32_d2 : S64x32x1024.ReducesTo [2] S64x32
  bcast_S_S64x32 : S_.BroadcastsInDim S64x32 (![] : Fin 0 → Fin S64x32.rank)
  reducesTo_S64x32_S64_d1 : S64x32.ReducesTo [1] S64
  bcast_S_S64 : S_.BroadcastsInDim S64 (![] : Fin 0 → Fin S64.rank)
  reducesTo_S64_S_d0 : S64.ReducesTo [0] S_
  dot_S64x1024x32_S64x1024x1024_S64x32x1024_1_1_2_2_0_0_wf : DotDims.WF S64x1024x32 S64x1024x1024 S64x32x1024 [1] [1] [2] [2] [0] [0]

variable [Facts₀]

def dot_S64x1024x32_S64x1024x1024_S64x32x1024_1_1_2_2_0_0 : DotDims S64x1024x32 S64x1024x1024 S64x32x1024 where
  lhsContracting := [1]
  rhsContracting := [1]
  lhsNonContracting := [2]
  rhsNonContracting := [2]
  lhsBatch := [0]
  rhsBatch := [0]
  wf := dot_S64x1024x32_S64x1024x1024_S64x32x1024_1_1_2_2_0_0_wf

class Facts : Prop extends Facts₀ where

variable [Facts]
-- ==== Proof.LibBitFloat.lean ====
/-
  A single bit as a float, on the extended reals.

  A one-bit word holds 0 or 1. Widened to a 32-bit word by zero-extension it is still 0 or 1, so reading that word
  as a SIGNED integer gives the bit's own value (the sign bit of the wide word is clear); reading the bit directly
  as an UNSIGNED integer gives the same value. Hence the two ways a comparison's result becomes the float 0.0 or
  1.0 — widen then convert signed, or convert unsigned — are one function of the bit. Depends on no program.
-/
import Idealize.ShloMosaic.PureOps.Ideal

noncomputable section

namespace Cert.BitFloat

open Idealize.ShloMosaic

/-- A one-bit word is the zero word or the one word. -/
theorem bit_cases (b : BitVec 1) : b = 0#1 ∨ b = 1#1 := by
  have h : b.toNat < 2 := b.isLt
  rcases Nat.lt_or_ge b.toNat 1 with h0 | h1
  · exact Or.inl (BitVec.eq_of_toNat_eq (by simp; omega))
  · exact Or.inr (BitVec.eq_of_toNat_eq (by simp; omega))

/-- Zero-extended to 32 bits and read signed, a bit is its own unsigned value. -/
theorem toInt_setWidth_bit (b : BitVec 1) : (b.setWidth 32).toInt = (b.toNat : Int) := by
  rcases bit_cases b with rfl | rfl <;> decide

/-- THE TWO ROUTES AGREE: the signed conversion of the 32-bit zero-extension of a bit is the unsigned conversion of
    the bit, as extended reals. -/
theorem sitofp_setWidth_eq_uitofp (b : BitVec 1) :
    FloatOps.sitofp (F := Ideal) .f32 (b.setWidth 32) = FloatOps.uitofp (F := Ideal) .f32 b := by
  show ((((b.setWidth 32).toInt : ℝ)) : EReal) = (((b.toNat : ℝ)) : EReal)
  rw [toInt_setWidth_bit]
  norm_num

end Cert.BitFloat

end
-- ==== Proof.SegMean.lean ====
/-
  The segment mean, as one function of the label array and the feature array, index by index.

  Sample b has 1024 tokens; token l carries a 32-bit label word attr[b, l] and a feature row feats[b, l, ·].
  Segment s (s = 0 … 31) collects the tokens whose label is s + 1. Write hit(a, s) for the float 1.0 when the word a
  is the label of segment s and 0.0 otherwise. The mean feature of segment s of sample b, at feature d, is

      ( Σ_l hit(attr[b, l], s) · feats[b, l, d] )  /  ( Σ_l hit(attr[b, l], s) ),

  the quotient being the extended reals' (a segment with no token divides zero by zero, and both programs do).
  The sums are finite sums over the 1024 tokens in the extended reals, where addition is commutative and
  associative, so no order of summation is part of the meaning.
-/
import Idealize.ShloMosaic.PureOps.Ideal
import Idealize.ShloMosaic.Lib.ValueIdx
import proofs.«119570_j87926570484230_1_alg».proof.Proof.LibBitFloat

noncomputable section

open scoped BigOperators

namespace Cert.SegMean

open Idealize.ShloMosaic Idealize.ShloMosaic.ValueIdx

/-- The label of segment `s`, labels counted from one, as a 32-bit word: one plus the segment's number. -/
def label (s : ℕ) : BitVec 32 := IntOp.addi 1#32 (BitVec.ofNat 32 s)

/-- 1.0 where the word `a` is segment `s`'s label, 0.0 where it is not: the comparison's bit read unsigned. -/
def hit (a : BitVec 32) (s : ℕ) : EReal := FloatOps.uitofp (F := Ideal) .f32 (IntOp.cmpi .eq a (label s))

/-- Equality of words does not depend on the order of its operands. -/
theorem cmpi_eq_comm {w : ℕ} (x y : BitVec w) : IntOp.cmpi .eq x y = IntOp.cmpi .eq y x := by
  unfold IntOp.cmpi
  show BitVec.ofBool (x == y) = BitVec.ofBool (y == x)
  by_cases h : x = y
  · subst h; rfl
  · have h' : ¬ y = x := fun e => h e.symm
    rw [beq_eq_false_iff_ne.mpr h, beq_eq_false_iff_ne.mpr h']

/-- The same float reached the other way round: the segment's number plus one compared WITH the word, the bit
    widened to 32 bits and read signed. Addition of words commutes, equality is symmetric, and a widened bit read
    signed is the bit read unsigned. -/
theorem hit_of_widened (a : BitVec 32) (s : ℕ) :
    FloatOps.sitofp (F := Ideal) .f32 ((IntOp.cmpi .eq (IntOp.addi (BitVec.ofNat 32 s) 1#32) a).setWidth 32) = hit a s := by
  rw [Cert.BitFloat.sitofp_setWidth_eq_uitofp, cmpi_eq_comm]
  unfold hit label IntOp.addi
  rw [BitVec.add_comm]

/-- The mean feature `d` of segment `s` of sample `b`. -/
def segMeanAt (attr : (⟨2, ![64, 1024]⟩ : Shape).Idx → BitVec 32) (feats : (⟨3, ![64, 1024, 1024]⟩ : Shape).Idx → EReal)
    (b : Fin 64) (s : Fin 32) (d : Fin 1024) : EReal :=
  Ideal.div (∑ l : Fin 1024, hit (attr (ix2 b l)) s.val * feats (ix3 b l d)) (∑ l : Fin 1024, hit (attr (ix2 b l)) s.val)

/-- The array of segment means, [64, 32, 1024]. -/
def segMean (attr : (⟨2, ![64, 1024]⟩ : Shape).Idx → BitVec 32) (feats : (⟨3, ![64, 1024, 1024]⟩ : Shape).Idx → EReal) :
    (⟨3, ![64, 32, 1024]⟩ : Shape).Idx → EReal := fun i =>
  segMeanAt attr feats ⟨(i 0).val, (i 0).isLt⟩ ⟨(i 1).val, (i 1).isLt⟩ ⟨(i 2).val, (i 2).isLt⟩

theorem segMean_ix3 (attr : (⟨2, ![64, 1024]⟩ : Shape).Idx → BitVec 32) (feats : (⟨3, ![64, 1024, 1024]⟩ : Shape).Idx → EReal)
    (b : Fin 64) (s : Fin 32) (d : Fin 1024) : segMean attr feats (ix3 b s d) = segMeanAt attr feats b s d := rfl

end Cert.SegMean

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.SegMeanBlock.lean ====
/-
  What one grid point computes: the segment means of ONE sample, from that sample's block of label words [1, 1, 1024]
  and its block of features [1, 1024, 1024].

  The body lays the 1024 label words as a row and copies the row down 32 rows; beside it stands the array whose row s
  is s + 1 everywhere (a count along the rows plus one). Comparing the two for equality, widening the bit to 32 bits
  and converting signed gives the one-hot array [32, 1024]: hit(word l, s) at (s, l). The product of that array with the
  feature block, accumulated from zero, has Σ_l hit · feats[l, d] at (s, d); the sum along each row, from zero, is the
  count Σ_l hit, which is stood up as a column and copied across the 1024 features; the quotient of the two, entry by
  entry, is stored as the output block [1, 32, 1024].
-/
import proofs.«119570_j87926570484230_1_alg».proof.Proof.Gen.KernelIdeal.Skeleton
import proofs.«119570_j87926570484230_1_alg».proof.Proof.SegMean
import proofs.«119570_j87926570484230_1_alg».proof.Proof.LibPlainDot
import proofs.«119570_j87926570484230_1_alg».proof.Proof.LibAxisFold
import proofs.«119570_j87926570484230_1_alg».proof.Proof.LibColumn
import Idealize.ShloMosaic.Lib.Pipeline.Value
import Idealize.ShloMosaic.Lib.ValueIdx
import Idealize.ShloMosaic.Lib.ValueLayout

noncomputable section

open scoped BigOperators

namespace Cert.KernelIdeal.Block

open Cert.KernelIdeal Cert.KernelIdeal.Gen Idealize.ShloMosaic Idealize.ShloMosaic.ValueIdx Cert.SegMean

/-- The block's label words, laid as a row and copied down the 32 segment rows, read at (s, l): word l. -/
theorem label_row_at (x0 : Vec Ideal S1x1x1024 .i32) (h1 : S1x1x1024.ShapeCasts S1024) (h2 : S1024.ShapeCasts S1x1024)
    (h3 : S1x1024.ShapeCasts S1x1024) (h4 : S1x1024.Broadcasts S32x1024) (s : Fin 32) (l : Fin 1024) :
    broadcastTo S32x1024 (shapeCast S1x1024 (shapeCast S1x1024 (shapeCast S1024 x0 h1) h2) h3) h4 (ix2 s l)
      = x0 (ix3 (0 : Fin 1) (0 : Fin 1) l) := by
  rw [shapeCast_self]
  refine (broadcastTo_apply _ h4 (ix2 s l) (ix2 (0 : Fin 1) l) fun a => ?_).trans ?_
  · match a with
    | ⟨0, _⟩ => show 0 = if (1 : Nat) = 1 then 0 else _; rw [if_pos rfl]
    | ⟨1, _⟩ => show l.val = if (1024 : Nat) = 1 then 0 else l.val; rw [if_neg (by decide)]
  refine (shapeCast_apply _ h2 (ix2 (0 : Fin 1) l) (ix1 l) ?_).trans ?_
  · rw [Shape.rowMajor_val_one, Shape.rowMajor_val_two]; show l.val = 0 * 1024 + l.val; omega
  refine shapeCast_apply _ h1 (ix1 l) (ix3 (0 : Fin 1) (0 : Fin 1) l) ?_
  rw [Shape.rowMajor_val_three, Shape.rowMajor_val_one]; show (0 * 1 + 0) * 1024 + l.val = l.val; omega

/-- The one-hot array of the block: the comparison of "row number plus one" with the copied label row, widened and
    converted signed. -/
def onehot (x0 : Vec Ideal S1x1x1024 .i32) : FVec Ideal S32x1024 .f32 :=
  sitofp .f32 (extui 32 (cmpi .eq (addi (iota .tc S32x1024 32 [0] iota_S32x1024_d0_w32) (broadcast S32x1024 1#32))
    (broadcastTo S32x1024 (shapeCast S1x1024 (shapeCast S1x1024 (shapeCast S1024 x0 shapeCasts_S1x1x1024_S1024)
      shapeCasts_S1024_S1x1024) shapeCasts_S1x1024_S1x1024) broadcasts_S1x1024_S32x1024)) natLt_1_32)

/-- At (s, l) it is hit(word l, s). -/
theorem onehot_at (x0 : Vec Ideal S1x1x1024 .i32) (s : Fin 32) (l : Fin 1024) :
    onehot x0 (ix2 s l) = hit (x0 (ix3 (0 : Fin 1) (0 : Fin 1) l)) s.val := by
  show FloatOps.sitofp (F := Ideal) .f32 ((IntOp.cmpi .eq
      (IntOp.addi (iota .tc S32x1024 32 [0] iota_S32x1024_d0_w32 (ix2 s l)) 1#32)
      (broadcastTo S32x1024 (shapeCast S1x1024 (shapeCast S1x1024 (shapeCast S1024 x0 shapeCasts_S1x1x1024_S1024)
        shapeCasts_S1024_S1x1024) shapeCasts_S1x1024_S1x1024) broadcasts_S1x1024_S32x1024 (ix2 s l))).setWidth 32) = _
  rw [label_row_at, iota_single_apply]
  exact hit_of_widened _ _

/-- The feature block with its leading unit axis dropped, read at (l, d). -/
theorem feats_at (x1 : Vec Ideal S1x1024x1024 .f32) (h : S1x1024x1024.ShapeCasts S1024x1024) (l d : Fin 1024) :
    shapeCast S1024x1024 x1 h (ix2 l d) = x1 (ix3 (0 : Fin 1) l d) := by
  refine shapeCast_apply _ h (ix2 l d) (ix3 (0 : Fin 1) l d) ?_
  rw [Shape.rowMajor_val_three, Shape.rowMajor_val_two]; show (0 * 1024 + l.val) * 1024 + d.val = l.val * 1024 + d.val; omega

/-- The body's payload is this composition of its two loaded blocks. -/
theorem payload_eq (x0 : Vec Ideal S1x1x1024 .i32) (x1 : Vec Ideal S1x1024x1024 .f32) :
    k0_pay1 (F := Ideal) x0 x1 = shapeCast S1x32x1024
      (divf
        (matmul dot_S32x1024_S1024x1024_S32x1024_1_0_0_1_n_n (some .fp32) (onehot x0)
          (shapeCast S1024x1024 x1 shapeCasts_S1x1024x1024_S1024x1024 : FVec Ideal S1024x1024 .f32) (constant S32x1024 .f32 0x00000000#32))
        (broadcastTo S32x1024 (shapeCast S32x1 (multiReduction .add [1] S32 (onehot x0) 0x00000000#32 reduces_S32x1024_S32 (.inl rfl) rfl)
          shapeCasts_S32_S32x1) broadcasts_S32x1_S32x1024))
      shapeCasts_S32x1024_S1x32x1024 := rfl

/-- The dimension numbers of the body's product are a plain product's. -/
theorem dot_plain : Cert.PlainDot.IsPlain dot_S32x1024_S1024x1024_S32x1024_1_0_0_1_n_n := ⟨rfl, rfl, rfl, rfl, rfl, rfl⟩

/-- THE BLOCK AT (0, s, d): the quotient of the weighted sum of the features by the count. -/
theorem payload_at (x0 : Vec Ideal S1x1x1024 .i32) (x1 : Vec Ideal S1x1024x1024 .f32) (s : Fin 32) (d : Fin 1024) :
    k0_pay1 (F := Ideal) x0 x1 (ix3 (0 : Fin 1) s d)
      = Ideal.div (∑ l : Fin 1024, hit (x0 (ix3 (0 : Fin 1) (0 : Fin 1) l)) s.val * x1 (ix3 (0 : Fin 1) l d))
          (∑ l : Fin 1024, hit (x0 (ix3 (0 : Fin 1) (0 : Fin 1) l)) s.val) := by
  rw [payload_eq]
  refine (shapeCast_apply _ shapeCasts_S32x1024_S1x32x1024 (ix3 (0 : Fin 1) s d) (ix2 s d) ?_).trans ?_
  · rw [Shape.rowMajor_val_two, Shape.rowMajor_val_three]; show s.val * 1024 + d.val = (0 * 32 + s.val) * 1024 + d.val; omega
  rw [divf_apply]
  refine congrArg₂ Ideal.div ?_ ?_
  · refine (Cert.PlainDot.matmul_zero_apply (φ₁ := .f32) (φ₂ := .f32) dot_plain (some .fp32) (onehot x0)
      (shapeCast S1024x1024 x1 shapeCasts_S1x1024x1024_S1024x1024) s d).trans ?_
    refine Finset.sum_congr rfl fun l _ => ?_
    rw [onehot_at, feats_at]
  · refine (Cert.Column.broadcastTo_a1_ab_apply _ broadcasts_S32x1_S32x1024 s d).trans ?_
    refine (Cert.Column.shapeCast_a_a1_apply _ shapeCasts_S32_S32x1 s (0 : Fin 1)).trans ?_
    refine (Cert.AxisFold.row_sum (onehot x0) reduces_S32x1024_S32 (.inl rfl) rfl s).trans ?_
    exact Finset.sum_congr rfl fun l _ => onehot_at x0 s l

end Cert.KernelIdeal.Block

end
-- ==== Proof.SegMeanArray.lean ====
/-
  From one sample's block to the whole array of segment means.

  The grid has one axis of 64 points, one per sample. At point t each of the three windows sits at block (t, 0, 0): the
  label window reads row t of the labels (held as [64, 1, 1024]: the label argument with a unit axis inserted by a
  broadcast before the region), the feature window reads sample t's [1024, 1024] features, and the output window writes
  sample t's [32, 1024] means. So what point t writes back is block t of the array of segment means of the two
  ARGUMENT arrays; the 64 blocks tile the [64, 32, 1024] output — index (b, s, d) lies in the block of point b — and
  the array after the run is the array of segment means.
-/
import proofs.«119570_j87926570484230_1_alg».proof.Proof.Gen.KernelIdeal.Frame
import proofs.«119570_j87926570484230_1_alg».proof.Proof.SegMeanBlock
import Idealize.ShloMosaic.Lib.Pipeline.Value
import Idealize.ShloMosaic.Lib.StableHlo.Run

set_option maxRecDepth 16384

noncomputable section

open scoped BigOperators

namespace Cert.KernelIdeal.Whole

open Cert.KernelIdeal Cert.KernelIdeal.Gen Idealize.ShloMosaic Idealize.ShloMosaic.TcCoe Idealize.ShloMosaic.ValueIdx
open Idealize.SL.Sem Cert.SegMean
open Idealize.ShloMosaic.Pipeline (Dat Cfg Window)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The labels with a unit axis inserted in the middle, read at (b, u, l): label (b, l). -/
theorem unit_axis_at (x : S64x1024.Idx → BitVec 32)
    (h : S64x1024.BroadcastsInDim S64x1x1024 (![0, 2] : Fin 2 → Fin S64x1x1024.rank)) (b : Fin 64) (u : Fin 1) (l : Fin 1024) :
    broadcastInDim S64x1x1024 ![0, 2] h x (ix3 b u l) = x (ix2 b l) :=
  broadcastInDim_apply _ h x (ix3 b u l) (ix2 b l) (fun a => match a with
    | ⟨0, _⟩ => by show b.val = if (64 : Nat) = 1 then 0 else b.val; rw [if_neg (by decide)]
    | ⟨1, _⟩ => by show l.val = if (1024 : Nat) = 1 then 0 else l.val; rw [if_neg (by decide)])

/-- The label window's array as the region finds it: the one host operation before the region applied to the label
    argument. -/
theorem labels_entry (c : Dev nD) :
    (V m c main_v0 : S64x1x1024.Idx → BitVec 32)
      = broadcastInDim S64x1x1024 ![0, 2] bcast_S64x1024_S64x1x1024_0_2 (m ((c : Thread nD τ).loc main_arg0)) := by
  show StableHlo.after hostOps0 (fun b => m (c, b)) (Proc.devRef .tc main_v0) = _
  after_results

/-- ONE BLOCK IS THE SEGMENT MEAN OF ONE SAMPLE: if a label block holds sample `b`'s labels and a feature block sample
    `b`'s features, the body's payload at `j` is the segment mean at the index with sample `b` and `j`'s segment and
    feature. -/
theorem block_is_segMean (attr : S64x1024.Idx → BitVec 32) (feats : S64x1024x1024.Idx → EReal) (b : Fin 64)
    (x0 : Vec Ideal S1x1x1024 .i32) (x1 : Vec Ideal S1x1024x1024 .f32)
    (h0 : ∀ l : Fin 1024, x0 (ix3 (0 : Fin 1) (0 : Fin 1) l) = attr (ix2 b l))
    (h1 : ∀ l d : Fin 1024, x1 (ix3 (0 : Fin 1) l d) = feats (ix3 b l d))
    (j : S1x32x1024.Idx) (i : S64x32x1024.Idx) (hi0 : (i 0).val = b.val) (hi1 : (i 1).val = (j 1).val) (hi2 : (i 2).val = (j 2).val) :
    k0_pay1 (F := Ideal) x0 x1 j = segMean attr feats i := by
  obtain ⟨u, s, d, rfl⟩ : ∃ (u : Fin 1) (s : Fin 32) (d : Fin 1024), j = ix3 u s d := ⟨j 0, j 1, j 2, eq_ix3 j⟩
  obtain rfl : u = 0 := Subsingleton.elim _ _
  obtain ⟨b', s', d', rfl⟩ : ∃ (b' : Fin 64) (s' : Fin 32) (d' : Fin 1024), i = ix3 b' s' d' := ⟨i 0, i 1, i 2, eq_ix3 i⟩
  obtain rfl : b' = b := Fin.ext hi0
  obtain rfl : s' = s := Fin.ext hi1
  obtain rfl : d' = d := Fin.ext hi2
  rw [Cert.KernelIdeal.Block.payload_at, segMean_ix3]
  unfold segMeanAt
  simp only [h0, h1]

/-- The printed index maps, decided over the 64 points: every window sits at block (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of the segment means of the argument arrays. -/
theorem flushed_eq (c : Dev nD) (t : Fin cfg0.N) :
    (dats m 0 c).flushed 2 t = ((cfg0.win 2).blk t).view.read (Elt Ideal)
      (segMean (m ((c : Thread nD τ).loc main_arg0)) (m ((c : Thread nD τ).loc main_arg1))) := by
  show (cfg0.win 2).cut (grid0.coords t) ((dats m 0 c).after 2 t) = _
  rw [after0_2]
  unfold out0_2
  rw [View.canon_unit_zero zero_offsets]
  simp only [View.ld_unit_zero (S := S1x1x1024) zero_offsets, View.ld_unit_zero (S := S1x1024x1024) zero_offsets]
  obtain ⟨a0, a1, a2, b0, b1, b2, c0, c1, c2⟩ := idx_facts t
  have ht : t.val < 64 := Nat.lt_of_lt_of_eq t.isLt N_0
  funext j
  show k0_pay1 (F := Ideal) (iblk m c 0 t) (iblk m c 1 t) j
    = segMean (m ((c : Thread nD τ).loc main_arg0)) (m ((c : Thread nD τ).loc main_arg1)) (((cfg0.win 2).blk t).view.emb j)
  refine block_is_segMean _ _ (⟨t.val, ht⟩ : Fin 64) (iblk m c 0 t) (iblk m c 1 t) ?_ ?_ j _ ?_ ?_ ?_
  · intro l
    have e : ((cfg0.win 0).blk t).view.emb (ix3 (0 : Fin 1) (0 : Fin 1) l) = ix3 (⟨t.val, ht⟩ : Fin 64) (0 : Fin 1) l := by
      funext a; apply Fin.ext
      match a with
      | ⟨0, _⟩ => show win0_0.index t (0 : Fin 3) * 1 + 1 * 0 = t.val; omega
      | ⟨1, _⟩ => show win0_0.index t (1 : Fin 3) * 1 + 1 * 0 = 0; omega
      | ⟨2, _⟩ => show win0_0.index t (2 : Fin 3) * 1024 + 1 * l.val = l.val; omega
    show V m c main_v0 (((cfg0.win 0).blk t).view.emb (ix3 (0 : Fin 1) (0 : Fin 1) l)) = _
    rw [e, labels_entry]
    exact unit_axis_at _ _ _ _ _
  · intro l d
    have e : ((cfg0.win 1).blk t).view.emb (ix3 (0 : Fin 1) l d) = ix3 (⟨t.val, ht⟩ : Fin 64) l d := by
      funext a; apply Fin.ext
      match a with
      | ⟨0, _⟩ => show win0_1.index t (0 : Fin 3) * 1 + 1 * 0 = t.val; omega
      | ⟨1, _⟩ => show win0_1.index t (1 : Fin 3) * 1024 + 1 * l.val = l.val; omega
      | ⟨2, _⟩ => show win0_1.index t (2 : Fin 3) * 1024 + 1 * d.val = d.val; omega
    show V m c main_arg1 (((cfg0.win 1).blk t).view.emb (ix3 (0 : Fin 1) l d)) = _
    rw [e, V_main_arg1]
  · show win0_2.index t (0 : Fin 3) * 1 + 1 * (j 0).val = t.val
    have hj : (j 0).val < 1 := (j 0).isLt
    omega
  · show win0_2.index t (1 : Fin 3) * 32 + 1 * (j 1).val = (j 1).val
    omega
  · show win0_2.index t (2 : Fin 3) * 1024 + 1 * (j 2).val = (j 2).val
    omega

/-- An index of the output array is in point `t`'s block iff each coordinate is in the block's range on its axis. -/
theorem mem_blk (t : Fin cfg0.N) (i : S64x32x1024.Idx) :
    i ∈ ((cfg0.win 2).blk t).view.set ↔ ∀ a : Fin 3, win0_2.index t a * S1x32x1024.size a ≤ (i a).val
      ∧ (i a).val < win0_2.index t a * S1x32x1024.size a + S1x32x1024.size a := by
  show i ∈ ((View.whole main_v1).slice (win0_2.rect t)).set ↔ _
  rw [View.set_slice_whole, Rect.mem_set_unit]
  exact Iff.rfl

/-- THE BLOCKS TILE THE OUTPUT: index (b, s, d) is in the block of point b, which is written back. -/
theorem cover (i : S64x32x1024.Idx) :
    ∃ t : Fin cfg0.N, (cfg0.win 2).flush t = true ∧ i ∈ ((cfg0.win 2).blk t).view.set := by
  have hb : (i 0).val < cfg0.N := Nat.lt_of_lt_of_eq (i 0).isLt N_0.symm
  refine ⟨⟨(i 0).val, hb⟩, flush0_2 _, ?_⟩
  rw [mem_blk]
  obtain ⟨-, -, -, -, -, -, c0, c1, c2⟩ := idx_facts ⟨(i 0).val, hb⟩
  have h1 : (i 1).val < 32 := (i 1).isLt
  have h2 : (i 2).val < 1024 := (i 2).isLt
  intro a
  match a with
  | ⟨0, _⟩ =>
    show win0_2.index ⟨(i 0).val, hb⟩ (0 : Fin 3) * 1 ≤ (i 0).val ∧ (i 0).val < win0_2.index ⟨(i 0).val, hb⟩ (0 : Fin 3) * 1 + 1
    rw [c0]; show (i 0).val * 1 ≤ (i 0).val ∧ (i 0).val < (i 0).val * 1 + 1; omega
  | ⟨1, _⟩ =>
    show win0_2.index ⟨(i 0).val, hb⟩ (1 : Fin 3) * 32 ≤ (i 1).val ∧ (i 1).val < win0_2.index ⟨(i 0).val, hb⟩ (1 : Fin 3) * 32 + 32
    omega
  | ⟨2, _⟩ =>
    show win0_2.index ⟨(i 0).val, hb⟩ (2 : Fin 3) * 1024 ≤ (i 2).val ∧ (i 2).val < win0_2.index ⟨(i 0).val, hb⟩ (2 : Fin 3) * 1024 + 1024
    omega

/-- THE OUTPUT ARRAY AFTER THE RUN is the array of segment means of the two argument arrays. -/
theorem final (c : Dev nD) :
    (dats m 0 c).arrAt 2 cfg0.N = segMean (m ((c : Thread nD τ).loc main_arg0)) (m ((c : Thread nD τ).loc main_arg1)) :=
  (dats m 0 c).arrAt_eq_of_cover 2 _ (fun t _ => flushed_eq m c t) cover

end Cert.KernelIdeal.Whole

end
-- ==== Proof.LossTail.lean ====
/-
  The loss, as one function of the target array Vgs and the array of segment means sm, both [64, 32, 1024].

  For sample b and segment s: the inner product num = Σ_d Vgs[b,s,d] · sm[b,s,d]; the two Euclidean norms
  ‖Vgs[b,s,·]‖ = sqrt(Σ_d Vgs²) and ‖sm[b,s,·]‖ = sqrt(Σ_d sm²); the cosine num / max(‖Vgs‖ · ‖sm‖, ε) with ε the float
  nearest 1e-8; then one minus the mean of the 32 cosines of a sample, and the mean of that over the 64 samples.
  Both programs compute exactly this, operation for operation, from their own array of segment means, so the
  definition is never opened: two equal arrays of segment means give equal losses by congruence.
  The side conditions of the reductions and broadcasts (which axes fold to which shape) are hypotheses here; a
  program supplies its own proofs of them, and any two proofs of one of them are equal.
-/
import Idealize.ShloMosaic.PureOps.Ideal

noncomputable section

namespace Cert.LossTail

open Idealize.ShloMosaic

abbrev SBSD : Shape := ⟨3, ![64, 32, 1024]⟩
abbrev SBS : Shape := ⟨2, ![64, 32]⟩
abbrev SB : Shape := ⟨1, ![64]⟩
abbrev S0 : Shape := ⟨0, ![]⟩

variable (hD : SBSD.ReducesTo [2] SBS) (hS : SBS.ReducesTo [1] SB) (hB : SB.ReducesTo [0] S0) (h0 : 0 < S0.numel)
  (hbS : S0.BroadcastsInDim SBS (![] : Fin 0 → Fin SBS.rank)) (hbB : S0.BroadcastsInDim SB (![] : Fin 0 → Fin SB.rank))

/-- The loss of a target array and an array of segment means. -/
def loss (vgs sm : FVec Ideal SBSD .f32) : FVec Ideal S0 .f32 :=
  Host.divf (F := Ideal)
    (Host.reduceAdd (F := Ideal)
      (subf (broadcastInDim SB ![] hbB (constant (F := Ideal) S0 .f32 0x3F800000#32))
        (Host.divf (F := Ideal)
          (Host.reduceAdd (F := Ideal)
            (Host.divf (F := Ideal)
              (Host.reduceAdd (F := Ideal) (mulf vgs sm) (constant (F := Ideal) S0 .f32 0x00000000#32) hD h0)
              (maximumf
                (mulf
                  (Host.sqrt (F := Ideal) (Host.reduceAdd (F := Ideal) (mulf vgs vgs) (constant (F := Ideal) S0 .f32 0x00000000#32) hD h0))
                  (Host.sqrt (F := Ideal) (Host.reduceAdd (F := Ideal) (mulf sm sm) (constant (F := Ideal) S0 .f32 0x00000000#32) hD h0)))
                (broadcastInDim SBS ![] hbS (constant (F := Ideal) S0 .f32 0x322BCC77#32))))
            (constant (F := Ideal) S0 .f32 0x00000000#32) hS h0)
          (broadcastInDim SB ![] hbB (constant (F := Ideal) S0 .f32 0x42000000#32))))
      (constant (F := Ideal) S0 .f32 0x00000000#32) hB h0)
    (constant (F := Ideal) S0 .f32 0x42800000#32)

end Cert.LossTail

end
-- ==== Proof.KernelLoss.lean ====
/-
  The kernel program's result: the loss of the target argument and the segment means of the other two arguments.

  After the region the program multiplies, sums, takes norms, clamps, divides and averages: the loss of (Vgs, sm), where
  Vgs is the third argument — no operation writes it, so every later line finds it as launched — and sm is the output
  array of the region, which the lines after the region find holding the array of segment means of the first two
  arguments. Read through those lines, the result buffer holds that loss, and the three arguments end unchanged.
-/
import proofs.«119570_j87926570484230_1_alg».proof.Proof.Gen.KernelIdeal.Frame
import proofs.«119570_j87926570484230_1_alg».proof.Proof.SegMeanArray
import proofs.«119570_j87926570484230_1_alg».proof.Proof.LossTail
import Idealize.ShloMosaic.Lib.StableHlo.Run
import Idealize.ShloMosaic.Lib.Pipeline.FrameSuffix

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Cert.SegMean Idealize.ShloMosaic.StableHlo

variable (m : (ℓ : Loc nD τ sig) → Buf (Elt Ideal) ℓ) (ρ : Dev nD → PrngReg)

/-- The loss, with this program's own proofs of the reductions' and broadcasts' side conditions. -/
abbrev lossOf (vgs sm : FVec Ideal S64x32x1024 .f32) : FVec Ideal S_ .f32 :=
  Cert.LossTail.loss reducesTo_S64x32x1024_S64x32_d2 reducesTo_S64x32_S64_d1 reducesTo_S64_S_d0 h_S_ bcast_S_S64x32 bcast_S_S64 vgs sm

/-- The lines after the region find the region's output array at the segment means. -/
theorem means_after_region (c : Dev nD) :
    Pipeline.withArrays (cfgs 0).spec c (V0 m c) (fun w => (dats m 0 c).arrAt w (cfgs 0).N) (Proc.devRef .tc main_v1)
      = segMean (m ((c : Thread nD τ).loc main_arg0)) (m ((c : Thread nD τ).loc main_arg1)) :=
  (Pipeline.withArrays_arr spec0 launch0.win.arr_inj c _ _ 2).trans (final m c)

/-- They find the target argument as launched: it is no array of the region and no operation before it writes it. -/
theorem target_after_region (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-- THE RESULT BUFFER after the lines that follow the region: the loss of the target and the segment means. -/
theorem tail_eq (c : Dev nD) :
    Pipeline.afterTail₀ cfgs (dats m) 0 (V0 m) [hostOps1, hostOps1_1, hostOps1_2, hostOps1_3] c main_v16
      = lossOf (m ((c : Thread nD τ).loc main_arg2))
          (segMean (m ((c : Thread nD τ).loc main_arg0)) (m ((c : Thread nD τ).loc main_arg1))) := by
  have e1 := means_after_region m c
  have e2 := target_after_region m c
  unfold Pipeline.afterTail₀
  simp only [hostOps1, hostOps1_1, hostOps1_2, hostOps1_3, List.flatten_cons, List.flatten_nil, List.append_nil,
    List.cons_append, List.nil_append]
  after_results_simp
  simp only [TRef.toBuf, TRef.ofBuf, TRef.of, cast_eq, e1, e2]
  rfl

/-- THE RUN, READ: every weakly fair execution ends with the result buffer at that loss and the arguments unchanged. -/
theorem run : θ_run defs (onTc (τ := τ) (main (F := Ideal))) ⟨m, fun _ => 0, ρ⟩ (fun r => ∀ c : Dev nD,
      r.2.mem ((c.tc : Thread nD τ).loc main_v16)
        = lossOf (m ((c.tc : Thread nD τ).loc main_arg2))
            (segMean (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.RefSegMean.lean ====
/-
  The reference computes the segment mean.

  Its one-hot array, [64, 1024, 32], holds at (b, l, s) the comparison of the label word attr[b, l] — broadcast along
  the segment axis — with one plus the segment's number — an iota along that axis plus a splat of one, broadcast along
  the other two —, read unsigned: that is hit(attr[b, l], s). Its batched product contracts the token axis of the one-hot
  array against the token axis of the features, sample by sample, so entry (b, s, d) is Σ_l hit · feats[b, l, d]; its
  count is the one-hot array summed over the token axis from zero; and it divides the one by the other, the count
  broadcast along the feature axis. Entry by entry this is the segment mean.
-/
import proofs.«119570_j87926570484230_1_alg».proof.Proof.Gen.ReferenceIdeal.Read
import proofs.«119570_j87926570484230_1_alg».proof.Proof.SegMean
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.SegMean

/-- The one-hot array at sample `b`, token `l`, segment `s`. -/
theorem onehot_at (x0 : (⟨S64x1024, .i32⟩ : BufTy).Contents (Elt Ideal)) (b : Fin 64) (l : Fin 1024) (s : Fin 32) :
    val_main_v8 (F := Ideal) x0 (ix3 b l s) = hit (x0 (ix2 b l)) s.val := by
  rw [val_main_v8_apply, val_main_v7_apply, val_main_v5_apply, val_main_v0_apply, val_main_v6_apply, val_main_v4_apply,
    val_main_v3_apply, val_main_v2_apply, val_main_c_apply, val_main_v1_apply]
  have e : idx_main_v0 (idx_main_v5 (ix3 b l s)) = ix2 b l := funext fun a => Fin.ext (by
    match a with
    | ⟨0, _⟩ => rfl
    | ⟨1, _⟩ => rfl)
  rw [e]
  rfl

/-- Stage 13 of the reference — the quotient of the batched product by the broadcast count — is the segment mean. -/
theorem seg_mean_eq (x0 : (⟨S64x1024, .i32⟩ : BufTy).Contents (Elt Ideal)) (x1 : (⟨S64x1024x1024, .f32⟩ : BufTy).Contents (Elt Ideal)) :
    val_main_v13 (F := Ideal) x0 x1 = segMean x0 x1 := by
  funext i
  obtain ⟨b, s, d, rfl⟩ : ∃ (b : Fin 64) (s : Fin 32) (d : Fin 1024), i = ix3 b s d := ⟨i 0, i 1, i 2, eq_ix3 i⟩
  rw [segMean_ix3, val_main_v13_apply, val_main_v9_apply, val_main_v12_apply, val_main_v11_apply, val_main_v10_apply,
    val_main_cst_apply]
  have el : ∀ k : Fin 1024, lidx_main_v9 (ix3 b s d) k = ix3 b k s := fun k => funext fun a => Fin.ext (by
    match a with
    | ⟨0, _⟩ => rfl
    | ⟨1, _⟩ => rfl
    | ⟨2, _⟩ => rfl)
  have er : ∀ k : Fin 1024, ridx_main_v9 (ix3 b s d) k = ix3 b k d := fun k => funext fun a => Fin.ext (by
    match a with
    | ⟨0, _⟩ => rfl
    | ⟨1, _⟩ => rfl
    | ⟨2, _⟩ => rfl)
  have ec : ∀ k : Fin 1024, idx_main_v10 (idx_main_v11 (idx_main_v12 (ix3 b s d))) k = ix3 b k s := fun k => funext fun a => Fin.ext (by
    match a with
    | ⟨0, _⟩ => rfl
    | ⟨1, _⟩ => rfl
    | ⟨2, _⟩ => rfl)
  simp only [el, er, ec, onehot_at, Ideal.hostDivf_def, Ideal.ofBits_def, Ideal.ofBits_zero_f32, zero_add]
  rfl

end Cert.ReferenceIdeal.RefValue

end
-- ==== Proof.RefLoss.lean ====
/-
  The reference program's result: the same loss, of the target argument and the segment means of the other two.

  The reference's composed term is its segment-mean stage — the array of segment means of the first two arguments —
  followed by the product with the target, the sums, norms, clamp, quotient and averages: the loss of the target and
  that array, with the reference's own proofs of the reductions' and broadcasts' side conditions.
-/
import proofs.«119570_j87926570484230_1_alg».proof.Proof.Gen.ReferenceIdeal.Read
import proofs.«119570_j87926570484230_1_alg».proof.Proof.RefSegMean
import proofs.«119570_j87926570484230_1_alg».proof.Proof.LossTail

set_option maxRecDepth 16384

noncomputable section

namespace Cert.ReferenceIdeal.RefValue

open Cert.ReferenceIdeal Cert.ReferenceIdeal.Gen Cert.ReferenceIdeal.Read Idealize.ShloMosaic Idealize.ShloMosaic.TcCoe
open Idealize.SL.Sem Cert.SegMean

/-- The loss, with the reference's own proofs of the side conditions. -/
abbrev lossOf (vgs sm : FVec Ideal S64x32x1024 .f32) : FVec Ideal S_ .f32 :=
  Cert.LossTail.loss reducesTo_S64x32x1024_S64x32_d2 reducesTo_S64x32_S64_d1 reducesTo_S64_S_d0 h_S_ bcast_S_S64x32 bcast_S_S64 vgs sm

/-- The reference's result term is the loss of the target argument and the segment means of the other two. -/
theorem result_eq (m : (ℓ : Loc nD τ sig) → Buf (Elt Ideal) ℓ) (c : Dev nD) :
    Cert.ReferenceIdeal.Value.res_main_v28 (F := Ideal) m c
      = lossOf (m ((c.tc : Thread nD τ).loc main_arg2))
          (segMean (m ((c.tc : Thread nD τ).loc main_arg0)) (m ((c.tc : Thread nD τ).loc main_arg1))) := by
  rw [← seg_mean_eq]
  unfold Cert.ReferenceIdeal.Value.res_main_v28
  rfl

end Cert.ReferenceIdeal.RefValue

end
-- ==== Proof.lean ====
/- The certificate of a segment-mean cosine loss.

   Inputs: 64 samples; each has 1024 tokens, token l of sample b carrying a 32-bit label word attr[b, l] and a feature
   row feats[b, l, ·] of 1024 numbers; and a target array Vgs [64, 32, 1024]. Segment s of a sample collects the tokens
   labelled s + 1, and its mean feature is sm[b, s, d] = (Σ_l hit · feats[b, l, d]) / (Σ_l hit), hit being 1.0 on the
   segment's tokens and 0.0 elsewhere. The result is the mean over samples of one minus the mean over segments of the
   cosine between Vgs[b, s, ·] and sm[b, s, ·], the product of the two norms clamped below.

   The kernel program computes sm one sample per grid point — a one-hot array [32, 1024] times the sample's features,
   divided by the one-hot array's row sums — and the loss by host operations after the region; the reference computes
   sm for all samples at once — a one-hot array [64, 1024, 32] contracted with the features over the token axis, divided
   by its sums over that axis — and the loss by the same operations. On the extended reals the two one-hot entries are one
   number (equality of words is symmetric, one plus s is s plus one, a widened bit read signed is the bit read unsigned),
   both sums run over the same 1024 tokens, and the quotient is one function, so the two arrays sm are equal entry by
   entry — with no assumption on the inputs: a segment with no token divides zero by zero on both sides alike — and the
   losses of equal arrays are equal. Nothing was rewritten between the kernel and its idealization, so that claim is
   empty; each program's run terminates without a fault and leaves its arguments unchanged.

   Proof/SegMean.lean states the segment mean; Proof/RefSegMean.lean and Proof/RefLoss.lean read the reference;
   Proof/SegMeanBlock.lean, Proof/SegMeanArray.lean and Proof/KernelLoss.lean read the kernel program: one block, the
   whole array, the result; Proof/LossTail.lean is the loss of a target and an array of means. -/
import proofs.«119570_j87926570484230_1_alg».proof.Defs
import proofs.«119570_j87926570484230_1_alg».proof.Proof.Gen.Kernel
import proofs.«119570_j87926570484230_1_alg».proof.Proof.Gen.Kernel.Frame
import proofs.«119570_j87926570484230_1_alg».proof.Proof.Gen.KernelIdeal
import proofs.«119570_j87926570484230_1_alg».proof.Proof.Gen.KernelIdeal.Frame
import proofs.«119570_j87926570484230_1_alg».proof.Proof.Gen.ReferenceIdeal
import proofs.«119570_j87926570484230_1_alg».proof.Proof.Gen.ReferenceIdeal.Run
import proofs.«119570_j87926570484230_1_alg».proof.Proof.Gen.Pre_finite_inputs
import proofs.«119570_j87926570484230_1_alg».proof.Proof.KernelLoss
import proofs.«119570_j87926570484230_1_alg».proof.Proof.RefLoss
import Idealize.ShloMosaic.Adequacy
import Idealize.ShloMosaic.Init

noncomputable section

namespace Cert.Proof

open Idealize.ShloMosaic Idealize.SL.Sem

/-- The kernel program, word for word: it runs, faults nowhere, and its arguments end as they began. -/
theorem frame_kernel : Cert.frame_Kernel := fun m ρ _ => Cert.Kernel.Gen.frame m ρ

/-- The same of the kernel program read over the extended reals. -/
theorem frame_ideal : Cert.frame_KernelIdeal := fun m ρ _ => Cert.KernelIdeal.Gen.frame m ρ

/-- The same of the reference: its run, the statement about its result dropped. -/
theorem frame_ref : Cert.frame_ReferenceIdeal := fun m ρ _ =>
  (θ_run Cert.ReferenceIdeal.defs _ _).mono (fun _ h c => (h c).2) (Cert.ReferenceIdeal.Value.run (F := Ideal) m ρ)

/-- No operation of the kernel program was rewritten to read it over the extended reals: nothing to preserve. -/
theorem preserves : Cert.preserves_Kernel_KernelIdeal := trivial

/-- From memories that agree on the three arguments both programs end with the loss of the target and the segment
    means of the labels and features: the kernel program by its run read through the region and the lines after it, the
    reference by its composed term; the two losses differ only in which proofs of the shapes' side conditions they carry. -/
theorem algebraic : Cert.algebraic_KernelIdeal_ReferenceIdeal := by
  intro m ρ m' ρ' _ hagree
  refine ⟨fun c => Cert.KernelIdeal.Whole.lossOf
      (m ((c.tc : Thread Cert.KernelIdeal.nD Cert.KernelIdeal.τ).loc Cert.KernelIdeal.main_arg2))
      (Cert.SegMean.segMean (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
